-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x64 .f32) (main_arg13 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x64 .f32) (main_arg1 : IVec S800000 32) (main_arg2 : IVec S800000 32) (main_arg3 : IVec S50000 32) (main_arg4 : FVec F S64x128 .f32) (main_arg5 : FVec F S128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_arg11 main_arg12 main_arg13 main_v13 main_v16
-- ==== Kernel.lean ====
abbrev S50000x64 : Shape := ⟨2, ![50000, 64]⟩
abbrev S800000 : Shape := ⟨1, ![800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S500x128 : Shape := ⟨2, ![500, 128]⟩
abbrev S50000x1 : Shape := ⟨2, ![50000, 1]⟩
abbrev S1x64 : Shape := ⟨2, ![1, 64]⟩
abbrev S500x64 : Shape := ⟨2, ![500, 64]⟩

abbrev nBuf : Space → Nat
  | .hbm => 52
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S_, .f32⟩
  | .hbm, ⟨47, _⟩ => ⟨S500x128, .f32⟩
  | .hbm, ⟨48, _⟩ => ⟨S50000x1, .i32⟩
  | .hbm, ⟨49, _⟩ => ⟨S500x128, .f32⟩
  | .hbm, ⟨50, _⟩ => ⟨S1x64, .f32⟩
  | .hbm, ⟨51, _⟩ => ⟨S500x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S500x128, .f32⟩
  | .local _ .vmem, ⟨19, _⟩ => ⟨S128x64, .f32⟩
  | .local _ .vmem, ⟨20, _⟩ => ⟨S1x64, .f32⟩
  | .local _ .vmem, ⟨21, _⟩ => ⟨S500x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S500x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S500x128 : S_.BroadcastsInDim S500x128 (![] : Fin 0 → Fin S500x128.rank)
  bcast_S50000_S50000x1_0 : S50000.BroadcastsInDim S50000x1 (![0] : Fin 1 → Fin S50000x1.rank)
  shapeCasts_S64_S1x64 : S64.ShapeCasts S1x64
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S500x64 : S1x64.Broadcasts S500x64
  inb_S500x64_S500x64_0_0 : ∀ a, (![0, 0] : Fin 2 → Nat) a + S500x64.size a ≤ S500x64.size a
  h_S500x64 : 0 < S500x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S500x128_S50000x1_S50000x128_1_0_0_1_wf : ScatterDims.WF S500x128 S50000x1 S50000x128 [1] [0] [0] 1
  dot_S500x128_S128x64_S500x64_1_0_0_1_n_n_wf : DotDims.WF S500x128 S128x64 S500x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x128.size a ≤ S500x128.size a
  hwx2_0 : ∀ i : grid2.Coords, EltTy.bits .f32 = 32 ∨ (Rect.block (s := S500x128) S500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S500x64.size a ≤ S500x64.size a
  hwx2_3 : ∀ i : grid2.Coords, EltTy.bits .f32 = 32 ∨ (Rect.block (s := S500x64) S500x64.size (cc2_transform_3 i) (hinb2_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S500x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S500x128 : Shape := ⟨2, ![500, 128]⟩
abbrev S50000x1 : Shape := ⟨2, ![50000, 1]⟩
abbrev S500x64 : Shape := ⟨2, ![500, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S500x128, .f32⟩
  | .hbm, ⟨66, _⟩ => ⟨S50000x1, .i32⟩
  | .hbm, ⟨67, _⟩ => ⟨S500x128, .f32⟩
  | .hbm, ⟨68, _⟩ => ⟨S500x64, .f32⟩
  | .hbm, ⟨69, _⟩ => ⟨S1x64, .f32⟩
  | .hbm, ⟨70, _⟩ => ⟨S500x64, .f32⟩
  | .hbm, ⟨71, _⟩ => ⟨S500x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000x128 : S_.BroadcastsInDim S50000x128 (![] : Fin 0 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  dot_S50000x64_S64x128_S50000x128_1_0_0_1_n_n_wf : DotDims.WF S50000x64 S64x128 S50000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S500x128_S50000x1_S50000x128_1_0_0_1_wf : ScatterDims.WF S500x128 S50000x1 S50000x128 [1] [0] [0] 1
  dot_S500x128_S128x64_S500x64_1_0_0_1_n_n_wf : DotDims.WF S500x128 S128x64 S500x64 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf

class Facts : Prop extends Facts₀ where

variable [Facts]
-- ==== Proof.KernelRun.lean ====
/-
  The tiled program's run, with EVERY buffer of the final state named.

  The program is three tiled calls among three stretches of host operations. Its run ends with every unscoped buffer of
  every core holding the contents of the last boundary of that chain (`W6`: the launch memory pushed through the first
  host stretch, the first call's write-backs, the second stretch, the second call, the third stretch, the third call).
  The frame claim keeps of this only the argument buffers; a value claim also needs the result buffer, so the same run is
  stated here with the whole final valuation in its post.
-/
import proofs.«106563_j47098611368430_1_alg».proof.Proof.Gen.KernelIdeal.Frame

set_option maxRecDepth 16384

noncomputable section

namespace Cert.Gnn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates, nothing faulting, and in every final state each
    unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Gnn.Run

end
-- ==== Proof.Spec.lean ====
/-
  The function both programs compute, layer by layer, on the extended reals.

  A graph network on 50000 nodes: two message-passing layers and a sum readout. One layer takes the node features
  `X`, the aggregated neighbour features `M` (the adjacency's sparse product with `X`, computed by a gather and a
  scatter-add that both programs spell with the same host operations), two weight matrices and ONE bias row `B`:

      layer X M Wa Wb B (r, j) = max ((∑ₖ X(r,k)·Wa(k,j) + ∑ₖ M(r,k)·Wb(k,j)) + B(0,j)) 0.

  The readout multiplies the pooled features by a weight matrix and adds a bias row:

      readout P W B (g, j) = ∑ₖ P(g,k)·W(k,j) + B(0,j).

  The tiled program computes exactly these with B = ba + bb; the plain program computes
  max ((∑ₖ X·Wa + ba) + (∑ₖ M·Wb + bb)) 0, and the two agree because addition of extended reals is commutative and
  associative (`regroup`; no finiteness is needed: nothing is distributed or cancelled).
-/
import proofs.«106563_j47098611368430_1_alg».proof.KernelIdeal
import Idealize.ShloMosaic.PureOps.Ideal
import Idealize.ShloMosaic.PureOps.Ideal.Laws
import Idealize.ShloMosaic.Lib.ValueIdx

noncomputable section

namespace Cert.Gnn

open Idealize.ShloMosaic Cert.KernelIdeal
open scoped BigOperators

/-! ## Indices: entry (row of `i`, `k`) of a left factor, (`k`, column of `i`) of a right factor, (0, column of `i`) of a bias row -/

abbrev lrow64 (i : S50000x128.Idx) (k : Fin 64) : S50000x64.Idx := fun a => match a with
  | ⟨0, _⟩ => ⟨(i 0).val, (i 0).isLt⟩
  | ⟨1, _⟩ => ⟨k.val, k.isLt⟩
abbrev rcol64 (i : S50000x128.Idx) (k : Fin 64) : S64x128.Idx := fun a => match a with
  | ⟨0, _⟩ => ⟨k.val, k.isLt⟩
  | ⟨1, _⟩ => ⟨(i 1).val, (i 1).isLt⟩
abbrev lrow128 (i : S50000x128.Idx) (k : Fin 128) : S50000x128.Idx := fun a => match a with
  | ⟨0, _⟩ => ⟨(i 0).val, (i 0).isLt⟩
  | ⟨1, _⟩ => ⟨k.val, k.isLt⟩
abbrev rcol128 (i : S50000x128.Idx) (k : Fin 128) : S128x128.Idx := fun a => match a with
  | ⟨0, _⟩ => ⟨k.val, k.isLt⟩
  | ⟨1, _⟩ => ⟨(i 1).val, (i 1).isLt⟩
abbrev brow128 (i : S50000x128.Idx) : S1x128.Idx := fun a => match a with
  | ⟨0, _⟩ => ⟨0, Nat.one_pos⟩
  | ⟨1, _⟩ => ⟨(i 1).val, (i 1).isLt⟩
abbrev lrowP (i : S500x64.Idx) (k : Fin 128) : S500x128.Idx := fun a => match a with
  | ⟨0, _⟩ => ⟨(i 0).val, (i 0).isLt⟩
  | ⟨1, _⟩ => ⟨k.val, k.isLt⟩
abbrev rcolP (i : S500x64.Idx) (k : Fin 128) : S128x64.Idx := fun a => match a with
  | ⟨0, _⟩ => ⟨k.val, k.isLt⟩
  | ⟨1, _⟩ => ⟨(i 1).val, (i 1).isLt⟩
abbrev browP (i : S500x64.Idx) : S1x64.Idx := fun a => match a with
  | ⟨0, _⟩ => ⟨0, Nat.one_pos⟩
  | ⟨1, _⟩ => ⟨(i 1).val, (i 1).isLt⟩

/-! ## The layers -/

/-- The first layer (64 input features): both products, their sum, the bias row, the positive part. -/
def layer64 (X M : FVec Ideal S50000x64 .f32) (Wa Wb : FVec Ideal S64x128 .f32) (B : FVec Ideal S1x128 .f32) :
    FVec Ideal S50000x128 .f32 := fun i =>
  max (((∑ k : Fin 64, X (lrow64 i k) * Wa (rcol64 i k)) + ∑ k : Fin 64, M (lrow64 i k) * Wb (rcol64 i k)) + B (brow128 i))
    (Ideal.ofBits .f32 0x00000000#32)

/-- The second layer (128 input features). -/
def layer128 (X M : FVec Ideal S50000x128 .f32) (Wa Wb : FVec Ideal S128x128 .f32) (B : FVec Ideal S1x128 .f32) :
    FVec Ideal S50000x128 .f32 := fun i =>
  max (((∑ k : Fin 128, X (lrow128 i k) * Wa (rcol128 i k)) + ∑ k : Fin 128, M (lrow128 i k) * Wb (rcol128 i k)) + B (brow128 i))
    (Ideal.ofBits .f32 0x00000000#32)

/-- The readout: the pooled features times the readout matrix, plus the bias row. -/
def readout (P : FVec Ideal S500x128 .f32) (W : FVec Ideal S128x64 .f32) (B : FVec Ideal S1x64 .f32) :
    FVec Ideal S500x64 .f32 := fun i =>
  (∑ k : Fin 128, P (lrowP i k) * W (rcolP i k)) + B (browP i)

/-! ## The one law: regrouping four summands -/

/-- `(a + b) + (c + d) = (a + c) + (b + d)` on the extended reals: addition there is a commutative monoid, infinities
    included, so the two ways of adding the two products and the two biases agree with no side condition. -/
theorem regroup (a b c d : EReal) : (a + b) + (c + d) = (a + c) + (b + d) := add_add_add_comm a b c d

end Cert.Gnn

end
-- ==== Proof.Network.lean ====
/-
  The whole network as ONE function of the fourteen argument arrays.

  The sparse steps — the adjacency's product with the node features (gather the source rows along the edges, add them into
  the destination rows) and the per-graph pooling (add node rows into graph rows) — are spelled by both programs with the
  same host operations on the same index arrays. They are named here once and never opened: the proof only needs that both
  programs apply the SAME function to equal operands.
-/
import proofs.«106563_j47098611368430_1_alg».proof.Proof.Spec
import proofs.«106563_j47098611368430_1_alg».proof.Proof.Gen.KernelIdeal
import Idealize.ShloMosaic.Lib.Pipeline.Value
import Idealize.ShloMosaic.Lib.ValueLayout

noncomputable section

namespace Cert.Gnn

open Idealize.ShloMosaic Cert.KernelIdeal Cert.KernelIdeal.Facts₀
open scoped BigOperators

/-- An edge's source index as the gather reads it: a negative index counts from the end (+ 50000). -/
def wrapIdx (e : Vec Ideal S800000 .i32) : Vec Ideal S800000 .i32 :=
  select (cmpi .slt e (broadcastInDim S800000 ![] bcast_S_S800000 (constantI S_ 32 0#32)))
    (addi e (broadcastInDim S800000 ![] bcast_S_S800000 (constantI S_ 32 50000#32))) e

/-- Aggregated neighbour features of a 64-column array: rows gathered along the edges' sources, added into the edges'
    destinations, starting from zeros. -/
def agg64 (X : Vec Ideal S50000x64 .f32) (erow ecol : Vec Ideal S800000 .i32) : Vec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 erow)
    (Host.gather gather_S50000x64_S800000x1_S800000x64_1_0_n_n_0_1_164 X
      (broadcastInDim S800000x1 ![0] bcast_S800000_S800000x1_0 (wrapIdx ecol)))

/-- The same of a 128-column array. -/
def agg128 (X : Vec Ideal S50000x128 .f32) (erow ecol : Vec Ideal S800000 .i32) : Vec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 erow)
    (Host.gather gather_S50000x128_S800000x1_S800000x128_1_0_n_n_0_1_1128 X
      (broadcastInDim S800000x1 ![0] bcast_S800000_S800000x1_0 (wrapIdx ecol)))

/-- Pooling: every node's row added into its graph's row, starting from zeros. -/
def pool (H : Vec Ideal S50000x128 .f32) (gid : Vec Ideal S50000 .i32) : Vec Ideal S500x128 .f32 :=
  Host.scatterAdd scatter_S500x128_S50000x1_S50000x128_1_0_0_1
    (broadcastInDim S500x128 ![] bcast_S_S500x128 (constant (F := Ideal) S_ .f32 0x00000000#32))
    (broadcastInDim S50000x1 ![0] bcast_S50000_S50000x1_0 gid) H

/-- The sum of two bias vectors as a one-row matrix. -/
def biasRow128 (a b : Vec Ideal S128 .f32) : Vec Ideal S1x128 .f32 :=
  shapeCast S1x128 (addf (F := Ideal) (φ := .f32) a b) shapeCasts_S128_S1x128

/-- A bias vector as a one-row matrix. -/
def biasRow64 (b : Vec Ideal S64 .f32) : Vec Ideal S1x64 .f32 :=
  shapeCast S1x64 b shapeCasts_S64_S1x64

/-- The network: two layers, pooling, readout. -/
def network (x : Vec Ideal S50000x64 .f32) (erow ecol : Vec Ideal S800000 .i32) (gid : Vec Ideal S50000 .i32)
    (w1a : Vec Ideal S64x128 .f32) (b1a : Vec Ideal S128 .f32) (w1b : Vec Ideal S64x128 .f32) (b1b : Vec Ideal S128 .f32)
    (w2a : Vec Ideal S128x128 .f32) (b2a : Vec Ideal S128 .f32) (w2b : Vec Ideal S128x128 .f32) (b2b : Vec Ideal S128 .f32)
    (wf : Vec Ideal S128x64 .f32) (bf : Vec Ideal S64 .f32) : Vec Ideal S500x64 .f32 :=
  readout
    (pool
      (layer128 (layer64 x (agg64 x erow ecol) w1a w1b (biasRow128 b1a b1b))
        (agg128 (layer64 x (agg64 x erow ecol) w1a w1b (biasRow128 b1a b1b)) erow ecol) w2a w2b (biasRow128 b2a b2b))
      gid)
    wf (biasRow64 bf)

/-! ## The bias rows read at an index -/

/-- Column `j` of a 128-vector, for an index of a [50000,128] array. -/
abbrev vcol128 (i : S50000x128.Idx) : S128.Idx := fun a => match a with
  | ⟨0, _⟩ => ⟨(i 1).val, (i 1).isLt⟩
/-- Column `j` of a 64-vector, for an index of a [500,64] array. -/
abbrev vcol64 (i : S500x64.Idx) : S64.Idx := fun a => match a with
  | ⟨0, _⟩ => ⟨(i 1).val, (i 1).isLt⟩

/-- Entry (0, j) of the summed bias row is the sum of the two vectors' entries j. -/
theorem biasRow128_apply (a b : Vec Ideal S128 .f32) (i : S50000x128.Idx) :
    biasRow128 a b (brow128 i) = a (vcol128 i) + b (vcol128 i) := by
  have e1 : brow128 i = ValueIdx.ix2 (0 : Fin 1) (⟨(i 1).val, (i 1).isLt⟩ : Fin 128) :=
    funext fun d => by match d with | ⟨0, _⟩ => rfl | ⟨1, _⟩ => rfl
  have e2 : vcol128 i = ValueIdx.ix1 (⟨(i 1).val, (i 1).isLt⟩ : Fin 128) :=
    funext fun d => by match d with | ⟨0, _⟩ => rfl
  unfold biasRow128
  rw [e1, e2, ValueIdx.shapeCast_a_1a_apply]
  rfl

/-- Entry (0, j) of the readout's bias row is the vector's entry j. -/
theorem biasRow64_apply (b : Vec Ideal S64 .f32) (i : S500x64.Idx) :
    biasRow64 b (browP i) = b (vcol64 i) := by
  have e1 : browP i = ValueIdx.ix2 (0 : Fin 1) (⟨(i 1).val, (i 1).isLt⟩ : Fin 64) :=
    funext fun d => by match d with | ⟨0, _⟩ => rfl | ⟨1, _⟩ => rfl
  have e2 : vcol64 i = ValueIdx.ix1 (⟨(i 1).val, (i 1).isLt⟩ : Fin 64) :=
    funext fun d => by match d with | ⟨0, _⟩ => rfl
  unfold biasRow64
  rw [e1, e2, ValueIdx.shapeCast_a_1a_apply]

end Cert.Gnn

end
-- ==== Proof.Region0.lean ====
/-
  The first layer's tiled computation: after its ten row tiles have been written back, the output array holds
  `layer64` of the arrays the call found.
-/
import proofs.«106563_j47098611368430_1_alg».proof.Proof.Network
import proofs.«106563_j47098611368430_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Region0

open Idealize.ShloMosaic Idealize.ShloMosaic.TcCoe Idealize.SL.Sem Cert.KernelIdeal Cert.KernelIdeal.Gen
open scoped BigOperators

/-! ## Indices inside one row tile: entry (row of `j`, `k`) of a left factor's tile, (`k`, column of `j`) of a weight
    matrix, (0, column of `j`) of the bias row -/

abbrev trow (j : S5000x128.Idx) (k : Fin 64) : S5000x64.Idx := fun a => match a with
  | ⟨0, _⟩ => ⟨(j 0).val, (j 0).isLt⟩
  | ⟨1, _⟩ => ⟨k.val, k.isLt⟩
abbrev tcol (j : S5000x128.Idx) (k : Fin 64) : S64x128.Idx := fun a => match a with
  | ⟨0, _⟩ => ⟨k.val, k.isLt⟩
  | ⟨1, _⟩ => ⟨(j 1).val, (j 1).isLt⟩
abbrev tbias (j : S5000x128.Idx) : S1x128.Idx := fun a => match a with
  | ⟨0, _⟩ => ⟨0, Nat.one_pos⟩
  | ⟨1, _⟩ => ⟨(j 1).val, (j 1).isLt⟩

/-! ## One tile's arithmetic at an index -/

/-- A tile's matrix product into the zero accumulator, read at `j`: the sum over the 64 shared coordinates of the
    left tile's row-of-`j` entries times the weight matrix's column-of-`j` entries. -/
theorem tile_product_apply (x : FVec Ideal S5000x64 .bf16) (w : FVec Ideal S64x128 .bf16) (j : S5000x128.Idx) :
    FloatOps.matmul dot_S5000x64_S64x128_S5000x128_1_0_0_1_n_n none x w (constant (F := Ideal) S5000x128 .f32 0x00000000#32) j
      = ∑ k : Fin 64, x (trow j k) * w (tcol j k) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = trow j k := funext fun a => Fin.ext (by
    match a with
    | ⟨0, _⟩ =>
      show (dot_S5000x64_S64x128_S5000x128_1_0_0_1_n_n.lhsIdx j _ 0).val = (j 0).val
      unfold DotDims.lhsIdx
      rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
      rfl
    | ⟨1, _⟩ => exact (dot_S5000x64_S64x128_S5000x128_1_0_0_1_n_n.lhsIdx_val_of_single rfl j _).trans hk)
  have er : dot_S5000x64_S64x128_S5000x128_1_0_0_1_n_n.rhsIdx j ((ValueIdx.contrEquiv1 dot_S5000x64_S64x128_S5000x128_1_0_0_1_n_n 64 rfl rfl).symm k) = tcol j k := funext fun a => Fin.ext (by
    match a with
    | ⟨0, _⟩ => exact (dot_S5000x64_S64x128_S5000x128_1_0_0_1_n_n.rhsIdx_val_of_single rfl j _).trans hk
    | ⟨1, _⟩ =>
      show (dot_S5000x64_S64x128_S5000x128_1_0_0_1_n_n.rhsIdx j _ 1).val = (j 1).val
      unfold DotDims.rhsIdx
      rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
      rfl)
  rw [el, er]

/-- The bias row broadcast over the tile's rows, read at `j`: the row's entry in `j`'s column. -/
theorem bias_rows_apply (b : Vec Ideal S1x128 .f32) (j : S5000x128.Idx) :
    broadcastTo S5000x128 b broadcasts_S1x128_S5000x128 j = b (tbias j) := by
  refine broadcastTo_apply b broadcasts_S1x128_S5000x128 j (tbias j) fun ax => ?_
  match ax with
  | ⟨0, _⟩ => rfl
  | ⟨1, _⟩ => rfl

/-- The tile the body stores, read at `j`: both products' sum plus the bias, then the positive part. -/
theorem tile_apply (x0 x1 : Vec Ideal S5000x64 .f32) (x2 x3 : Vec Ideal S64x128 .f32) (x4 : Vec Ideal S1x128 .f32)
    (j : S5000x128.Idx) :
    k0_pay1 (F := Ideal) x0 x1 x2 x3 x4 j
      = max (((∑ k : Fin 64, x0 (trow j k) * x2 (tcol j k)) + ∑ k : Fin 64, x1 (trow j k) * x3 (tcol j k)) + x4 (tbias j))
          (Ideal.ofBits .f32 0x00000000#32) := by
  unfold k0_pay1
  rw [shapeCast_self, shapeCast_self]
  show max ((FloatOps.matmul dot_S5000x64_S64x128_S5000x128_1_0_0_1_n_n none (truncf .bf16 x0 bitsLt_bf16_f32)
          (truncf .bf16 x2 bitsLt_bf16_f32) (constant (F := Ideal) S5000x128 .f32 0x00000000#32) j
        + FloatOps.matmul dot_S5000x64_S64x128_S5000x128_1_0_0_1_n_n none (truncf .bf16 x1 bitsLt_bf16_f32)
          (truncf .bf16 x3 bitsLt_bf16_f32) (constant (F := Ideal) S5000x128 .f32 0x00000000#32) j)
      + broadcastTo S5000x128 x4 broadcasts_S1x128_S5000x128 j) (Ideal.ofBits .f32 0x00000000#32) = _
  rw [tile_product_apply, tile_product_apply, bias_rows_apply]
  rfl

/-- Tiles that agree, entry by entry, with the arrays along the row and the column of an array index `i` give the
    layer's value at `i`. -/
theorem tile_eq_layer (x0 x1 : Vec Ideal S5000x64 .f32) (x2 x3 : Vec Ideal S64x128 .f32) (x4 : Vec Ideal S1x128 .f32)
    (X M : FVec Ideal S50000x64 .f32) (Wa Wb : FVec Ideal S64x128 .f32) (B : FVec Ideal S1x128 .f32)
    (j : S5000x128.Idx) (i : S50000x128.Idx)
    (hX : ∀ k : Fin 64, x0 (trow j k) = X (lrow64 i k)) (hM : ∀ k : Fin 64, x1 (trow j k) = M (lrow64 i k))
    (hWa : ∀ k : Fin 64, x2 (tcol j k) = Wa (rcol64 i k)) (hWb : ∀ k : Fin 64, x3 (tcol j k) = Wb (rcol64 i k))
    (hB : x4 (tbias j) = B (brow128 i)) :
    k0_pay1 (F := Ideal) x0 x1 x2 x3 x4 j = Cert.Gnn.layer64 X M Wa Wb B i := by
  rw [tile_apply]
  unfold Cert.Gnn.layer64
  have sX : (∑ k : Fin 64, x0 (trow j k) * x2 (tcol j k)) = ∑ k : Fin 64, X (lrow64 i k) * Wa (rcol64 i k) :=
    Finset.sum_congr rfl fun k _ => by rw [hX k, hWa k]
  have sM : (∑ k : Fin 64, x1 (trow j k) * x3 (tcol j k)) = ∑ k : Fin 64, M (lrow64 i k) * Wb (rcol64 i k) :=
    Finset.sum_congr rfl fun k _ => by rw [hM k, hWb k]
  rw [sX, sM, hB]

/-! ## The tiles' places in the arrays -/

/-- The body's loads and its store start at the tile's origin. -/
theorem origin_zero : (![0, 0] : Fin 2 → Nat) = fun _ => 0 := funext fun a => by fin_cases a <;> rfl

/-- The index maps, decided over the ten grid points: the two feature arrays' tiles move with the output's tile down
    the rows and sit at column block 0; the weight matrices and the bias row are whole at every point; the output's
    tile sits at column block 0 and at a row block below 10. -/
theorem tile_places : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block of the output is some point's. -/
theorem tile_onto : ∀ q : Fin 10, ∃ t : Fin cfg0.N, win0_5.index t = ![q.val, 0] :=
  (by decide +kernel : ∀ q : Fin 10, ∃ t : Fin grid0.N, win0_5.index t = ![q.val, 0])

/-- What point `t` writes back is tile `t` of the layer's output. -/
theorem written_tile (V : (c : Dev nD) → (b : Ref sig .tc) → Buf (Elt Ideal) ((c : Thread nD τ).loc b))
    (c : Dev nD) (t : Fin cfg0.N) :
    (dat0 (F := Ideal) V c).flushed 5 t = ((cfg0.win 5).blk t).view.read (Elt Ideal)
      (Cert.Gnn.layer64 (V c main_arg0) (V c main_v9) (V c main_arg4) (V c main_arg6) (V c main_v11)) := by
  show (cfg0.win 5).cut (grid0.coords t) ((dat0 V c).after 5 t) = _
  rw [after0_5]
  unfold out0_5
  rw [View.canon_unit_zero origin_zero]
  simp only [View.ld_unit_zero (S := S5000x64) origin_zero, View.ld_unit_zero (S := S64x128) origin_zero,
    View.ld_unit_zero (S := S1x128) origin_zero]
  funext j
  show k0_pay1 (F := Ideal) (iblk0 V c 0 t) (iblk0 V c 1 t) (iblk0 V c 2 t) (iblk0 V c 3 t) (iblk0 V c 4 t) j
    = Cert.Gnn.layer64 (V c main_arg0) (V c main_v9) (V c main_arg4) (V c main_arg6) (V c main_v11)
        (((cfg0.win 5).blk t).view.emb j)
  obtain ⟨e00, e01, e10, e11, e20, e21, e30, e31, e40, e41, e50, e51⟩ := tile_places t
  -- each tile read where the output's tile says: along every axis a tile's entry sits at block index × tile extent
  -- + 1 × the coordinate inside the tile
  have hX : ∀ k : Fin 64, (iblk0 V c 0 t : Vec Ideal S5000x64 .f32) (trow j k)
      = V c main_arg0 (lrow64 (((cfg0.win 5).blk t).view.emb j) k) := fun k => by
    show V c main_arg0 (((cfg0.win 0).blk t).view.emb (trow j k)) = _
    refine congrArg _ (funext fun a => Fin.ext ?_)
    match a with
    | ⟨0, _⟩ =>
      show win0_0.index t (0 : Fin 2) * 5000 + 1 * (j 0).val = win0_5.index t (0 : Fin 2) * 5000 + 1 * (j 0).val
      omega
    | ⟨1, _⟩ =>
      show win0_0.index t (1 : Fin 2) * 64 + 1 * k.val = k.val
      omega
  have hM : ∀ k : Fin 64, (iblk0 V c 1 t : Vec Ideal S5000x64 .f32) (trow j k)
      = V c main_v9 (lrow64 (((cfg0.win 5).blk t).view.emb j) k) := fun k => by
    show V c main_v9 (((cfg0.win 1).blk t).view.emb (trow j k)) = _
    refine congrArg _ (funext fun a => Fin.ext ?_)
    match a with
    | ⟨0, _⟩ =>
      show win0_1.index t (0 : Fin 2) * 5000 + 1 * (j 0).val = win0_5.index t (0 : Fin 2) * 5000 + 1 * (j 0).val
      omega
    | ⟨1, _⟩ =>
      show win0_1.index t (1 : Fin 2) * 64 + 1 * k.val = k.val
      omega
  have hWa : ∀ k : Fin 64, (iblk0 V c 2 t : Vec Ideal S64x128 .f32) (tcol j k)
      = V c main_arg4 (rcol64 (((cfg0.win 5).blk t).view.emb j) k) := fun k => by
    show V c main_arg4 (((cfg0.win 2).blk t).view.emb (tcol j k)) = _
    refine congrArg _ (funext fun a => Fin.ext ?_)
    match a with
    | ⟨0, _⟩ =>
      show win0_2.index t (0 : Fin 2) * 64 + 1 * k.val = k.val
      omega
    | ⟨1, _⟩ =>
      show win0_2.index t (1 : Fin 2) * 128 + 1 * (j 1).val = win0_5.index t (1 : Fin 2) * 128 + 1 * (j 1).val
      omega
  have hWb : ∀ k : Fin 64, (iblk0 V c 3 t : Vec Ideal S64x128 .f32) (tcol j k)
      = V c main_arg6 (rcol64 (((cfg0.win 5).blk t).view.emb j) k) := fun k => by
    show V c main_arg6 (((cfg0.win 3).blk t).view.emb (tcol j k)) = _
    refine congrArg _ (funext fun a => Fin.ext ?_)
    match a with
    | ⟨0, _⟩ =>
      show win0_3.index t (0 : Fin 2) * 64 + 1 * k.val = k.val
      omega
    | ⟨1, _⟩ =>
      show win0_3.index t (1 : Fin 2) * 128 + 1 * (j 1).val = win0_5.index t (1 : Fin 2) * 128 + 1 * (j 1).val
      omega
  have hB : (iblk0 V c 4 t : Vec Ideal S1x128 .f32) (tbias j)
      = V c main_v11 (brow128 (((cfg0.win 5).blk t).view.emb j)) := by
    show V c main_v11 (((cfg0.win 4).blk t).view.emb (tbias j)) = _
    refine congrArg _ (funext fun a => Fin.ext ?_)
    match a with
    | ⟨0, _⟩ =>
      show win0_4.index t (0 : Fin 2) * 1 + 1 * 0 = 0
      omega
    | ⟨1, _⟩ =>
      show win0_4.index t (1 : Fin 2) * 128 + 1 * (j 1).val = win0_5.index t (1 : Fin 2) * 128 + 1 * (j 1).val
      omega
  exact tile_eq_layer (iblk0 V c 0 t) (iblk0 V c 1 t) (iblk0 V c 2 t) (iblk0 V c 3 t) (iblk0 V c 4 t)
    (V c main_arg0) (V c main_v9) (V c main_arg4) (V c main_arg6) (V c main_v11) j (((cfg0.win 5).blk t).view.emb j)
    hX hM hWa hWb hB

/-! ## The ten tiles fill the array -/

/-- An index of the output array is in point `t`'s tile iff each coordinate is in the tile's range on its axis. -/
theorem mem_tile (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v12).slice (win0_5.rect t)).set ↔ _
  rw [View.set_slice_whole, Rect.mem_set_unit]
  exact Iff.rfl

/-- Every index of the output array lies in the tile of the point whose row block is its row divided by 5000, and
    every point writes its tile back. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := tile_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_tile]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-! ## The output array after the ten write-backs -/

/-- After the run of the ten points the output array is the first layer of the arrays the call found: every point
    writes back its tile of the layer, and the tiles fill the array. -/
theorem final (V : (c : Dev nD) → (b : Ref sig .tc) → Buf (Elt Ideal) ((c : Thread nD τ).loc b)) (c : Dev nD) :
    (dat0 (F := Ideal) V c).arrAt 5 cfg0.N
      = Cert.Gnn.layer64 (V c main_arg0) (V c main_v9) (V c main_arg4) (V c main_arg6) (V c main_v11) := by
  exact (dat0 (F := Ideal) V c).arrAt_eq_of_cover 5
    (Cert.Gnn.layer64 (V c main_arg0) (V c main_v9) (V c main_arg4) (V c main_arg6) (V c main_v11))
    (fun t _ => written_tile V c t) covered

end Cert.Gnn.Region0

end
-- ==== Proof.Region1.lean ====
/-
  The second layer's tiled computation: after its ten row tiles have been written back, the output array holds
  `layer128` of the arrays the call found.

  The grid has ten points. At point t the two feature windows and the output window are rows 5000·t … 5000·t + 4999 of
  their [50000,128] arrays; the two [128,128] weight matrices and the [1,128] bias row are whole at every point. A tile
  multiplies each feature block by its weight matrix into a zero accumulator, adds the two products, adds the bias row
  spread over the rows, and takes the positive part. Read at an entry (r, j) of the tile that is
  max ((∑ₖ X(r,k)·Wa(k,j) + ∑ₖ M(r,k)·Wb(k,j)) + B(0,j)) 0  — the conversions of the factors to the multiplier's
  input format are the identity on the extended reals — which is the layer at row 5000·t + r. The ten write-backs
  cover the array, so it ends holding the layer.
-/
import proofs.«106563_j47098611368430_1_alg».proof.Proof.Network
import proofs.«106563_j47098611368430_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Region1

open Idealize.ShloMosaic Idealize.ShloMosaic.TcCoe Idealize.SL.Sem Cert.KernelIdeal Cert.KernelIdeal.Gen
open scoped BigOperators

/-! ## Indices inside a tile

For an entry `j` of a [5000,128] tile: entry (row of `j`, `k`) of a left factor tile, entry (`k`, column of `j`) of a
weight matrix, entry (0, column of `j`) of the bias row. -/

abbrev lrowT (j : S5000x128.Idx) (k : Fin 128) : S5000x128.Idx := fun a => match a with
  | ⟨0, _⟩ => ⟨(j 0).val, (j 0).isLt⟩
  | ⟨1, _⟩ => ⟨k.val, k.isLt⟩
abbrev rcolT (j : S5000x128.Idx) (k : Fin 128) : S128x128.Idx := fun a => match a with
  | ⟨0, _⟩ => ⟨k.val, k.isLt⟩
  | ⟨1, _⟩ => ⟨(j 1).val, (j 1).isLt⟩
abbrev browT (j : S5000x128.Idx) : S1x128.Idx := fun a => match a with
  | ⟨0, _⟩ => ⟨0, Nat.one_pos⟩
  | ⟨1, _⟩ => ⟨(j 1).val, (j 1).isLt⟩

/-! ## The tile's arithmetic at an index -/

/-- A product's left operand is read in the output index's row -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- ... and in the column the contraction index names. -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

/-- The right operand is read in the row the contraction index names -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

/-- ... and in the output index's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A tile times a weight matrix into a zero accumulator, at an index: the sum over the 128 contracted positions. -/
theorem product_apply (a : FVec Ideal S5000x128 .bf16) (b : FVec Ideal S128x128 .bf16) (j : S5000x128.Idx) :
    matmul dot_S5000x128_S128x128_S5000x128_1_0_0_1_n_n none a b (constant (F := Ideal) S5000x128 .f32 0x00000000#32) j
      = ∑ k : Fin 128, a (lrowT j k) * b (rcolT j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrowT j k :=
    funext fun d => Fin.ext (by
      match d with
      | ⟨0, _⟩ => exact lhs_row _ _
      | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = rcolT j k :=
    funext fun d => Fin.ext (by
      match d with
      | ⟨0, _⟩ => exact (rhs_row _ _).trans hk
      | ⟨1, _⟩ => exact rhs_col _ _)
  rw [el, er]

/-- The bias row spread over the tile's 5000 rows, at an index: the row's entry in that column. -/
theorem bias_apply (x4 : Vec Ideal S1x128 .f32) (j : S5000x128.Idx) :
    broadcastTo S5000x128 x4 broadcasts_S1x128_S5000x128 j = x4 (browT j) := by
  refine broadcastTo_apply x4 broadcasts_S1x128_S5000x128 j (browT j) fun d => ?_
  match d with
  | ⟨0, _⟩ => rfl
  | ⟨1, _⟩ => show (j 1).val = if (128 : Nat) = 1 then 0 else (j 1).val; rw [if_neg (by decide)]

/-- What a tile stores, at an index: the two products' entries added, plus the bias row's entry in that column, and
    the positive part of that. The casts to the multiplier's input format are the identity on the extended reals. -/
theorem payload_apply (x0 x1 : Vec Ideal S5000x128 .f32) (x2 x3 : Vec Ideal S128x128 .f32) (x4 : Vec Ideal S1x128 .f32)
    (j : S5000x128.Idx) :
    k1_pay1 (F := Ideal) x0 x1 x2 x3 x4 j
      = max (((∑ k : Fin 128, x0 (lrowT j k) * x2 (rcolT j k)) + ∑ k : Fin 128, x1 (lrowT j k) * x3 (rcolT j k))
          + x4 (browT j)) (Ideal.ofBits .f32 0x00000000#32) := by
  unfold k1_pay1
  simp only [shapeCast_self]
  rw [ValueIdx.maximumf_apply, ValueIdx.addf_apply, ValueIdx.addf_apply, product_apply, product_apply, bias_apply]
  rfl

/-! ## From the tiles to the array -/

/-- The tile's arithmetic on blocks that agree, entry by entry, with five arrays read at an index `i`, is the second
    layer of those arrays at `i`. -/
theorem payload_eq_layer (x0 x1 : Vec Ideal S5000x128 .f32) (x2 x3 : Vec Ideal S128x128 .f32) (x4 : Vec Ideal S1x128 .f32)
    (X M : FVec Ideal S50000x128 .f32) (Wa Wb : FVec Ideal S128x128 .f32) (B : FVec Ideal S1x128 .f32)
    (j : S5000x128.Idx) (i : S50000x128.Idx)
    (h0 : ∀ k : Fin 128, x0 (lrowT j k) = X (lrow128 i k)) (h1 : ∀ k : Fin 128, x1 (lrowT j k) = M (lrow128 i k))
    (h2 : ∀ k : Fin 128, x2 (rcolT j k) = Wa (rcol128 i k)) (h3 : ∀ k : Fin 128, x3 (rcolT j k) = Wb (rcol128 i k))
    (h4 : x4 (browT j) = B (brow128 i)) :
    k1_pay1 (F := Ideal) x0 x1 x2 x3 x4 j = Cert.Gnn.layer128 X M Wa Wb B i := by
  have s0 : (∑ k : Fin 128, x0 (lrowT j k) * x2 (rcolT j k)) = ∑ k : Fin 128, X (lrow128 i k) * Wa (rcol128 i k) :=
    Finset.sum_congr rfl fun k _ => by rw [h0 k, h2 k]
  have s1 : (∑ k : Fin 128, x1 (lrowT j k) * x3 (rcolT j k)) = ∑ k : Fin 128, M (lrow128 i k) * Wb (rcol128 i k) :=
    Finset.sum_congr rfl fun k _ => by rw [h1 k, h3 k]
  rw [payload_apply, s0, s1, h4]
  rfl

/-- The zero offset pair, as the constant function. -/
theorem origin : (![0, 0] : Fin 2 → Nat) = fun _ => 0 := funext fun a => by fin_cases a <;> rfl

/-- The six index maps, decided over the grid: at point `t` the two feature windows and the output window are at row
    block `t`, column block 0; the two weight matrices and the bias row are block (0, 0) at every point. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is its block of the second layer of the five arrays the call found: the feature tiles are
    rows 5000·t … 5000·t + 4999 of their arrays, as the output tile is of its, and the weights and the bias row are whole. -/
theorem written_block (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal)
          (Cert.Gnn.layer128 (V c main_v12) (V c main_v22) (V c main_arg8) (V c main_arg10) (V c main_v24)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51⟩ := block_index t
  funext j
  show k1_pay1 (F := Ideal) (iblk1 V c 0 t) (iblk1 V c 1 t) (iblk1 V c 2 t) (iblk1 V c 3 t) (iblk1 V c 4 t) j
      = Cert.Gnn.layer128 (V c main_v12) (V c main_v22) (V c main_arg8) (V c main_arg10) (V c main_v24)
          (((cfg1.win 5).blk t).view.emb j)
  refine payload_eq_layer _ _ _ _ _ _ _ _ _ _ j _ (fun k => ?_) (fun k => ?_) (fun k => ?_) (fun k => ?_) ?_
  · show V c main_v12 (((cfg1.win 0).blk t).view.emb (lrowT j k)) = V c main_v12 (lrow128 (((cfg1.win 5).blk t).view.emb j) k)
    refine congrArg (V c main_v12) (funext fun a => Fin.ext ?_)
    match a with
    | ⟨0, _⟩ => show win1_0.index t (0 : Fin 2) * 5000 + 1 * (j 0).val = win1_5.index t (0 : Fin 2) * 5000 + 1 * (j 0).val; rw [e00, e50]
    | ⟨1, _⟩ => show win1_0.index t (1 : Fin 2) * 128 + 1 * k.val = k.val; rw [e01]; omega
  · show V c main_v22 (((cfg1.win 1).blk t).view.emb (lrowT j k)) = V c main_v22 (lrow128 (((cfg1.win 5).blk t).view.emb j) k)
    refine congrArg (V c main_v22) (funext fun a => Fin.ext ?_)
    match a with
    | ⟨0, _⟩ => show win1_1.index t (0 : Fin 2) * 5000 + 1 * (j 0).val = win1_5.index t (0 : Fin 2) * 5000 + 1 * (j 0).val; rw [e10, e50]
    | ⟨1, _⟩ => show win1_1.index t (1 : Fin 2) * 128 + 1 * k.val = k.val; rw [e11]; omega
  · show V c main_arg8 (((cfg1.win 2).blk t).view.emb (rcolT j k)) = V c main_arg8 (rcol128 (((cfg1.win 5).blk t).view.emb j) k)
    refine congrArg (V c main_arg8) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = win1_5.index t (1 : Fin 2) * 128 + 1 * (j 1).val; rw [e21, e51]
  · show V c main_arg10 (((cfg1.win 3).blk t).view.emb (rcolT j k)) = V c main_arg10 (rcol128 (((cfg1.win 5).blk t).view.emb j) k)
    refine congrArg (V c main_arg10) (funext fun a => Fin.ext ?_)
    match a with
    | ⟨0, _⟩ => show win1_3.index t (0 : Fin 2) * 128 + 1 * k.val = k.val; rw [e30]; omega
    | ⟨1, _⟩ => show win1_3.index t (1 : Fin 2) * 128 + 1 * (j 1).val = win1_5.index t (1 : Fin 2) * 128 + 1 * (j 1).val; rw [e31, e51]
  · show V c main_v24 (((cfg1.win 4).blk t).view.emb (browT j)) = V c main_v24 (brow128 (((cfg1.win 5).blk t).view.emb j))
    refine congrArg (V c main_v24) (funext fun a => Fin.ext ?_)
    match a with
    | ⟨0, _⟩ => show win1_4.index t (0 : Fin 2) * 1 + 1 * 0 = 0; rw [e40]
    | ⟨1, _⟩ => show win1_4.index t (1 : Fin 2) * 128 + 1 * (j 1).val = win1_5.index t (1 : Fin 2) * 128 + 1 * (j 1).val; rw [e41, e51]

/-- An index of the output array is in point `t`'s block iff each coordinate is in the block's range on its axis. -/
theorem mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v25).slice (win1_5.rect t)).set ↔ _
  rw [View.set_slice_whole, Rect.mem_set_unit]
  exact Iff.rfl

/-- Every index of the [50000,128] output is in some point's block: row `r` is in the block of point `r / 5000`; every
    point's block is written back. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, -, -, -, -, -, -, e50, e51⟩ := block_index t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after the call: the second layer of the node features, the aggregated neighbour features, the two
    weight matrices and the bias row as the call found them. -/
theorem final (V : (c : Dev nD) → (b : Ref sig .tc) → Buf (Elt Ideal) ((c : Thread nD τ).loc b)) (c : Dev nD) :
    (dat1 (F := Ideal) V c).arrAt 5 cfg1.N
      = Cert.Gnn.layer128 (V c main_v12) (V c main_v22) (V c main_arg8) (V c main_arg10) (V c main_v24) :=
  (dat1 (F := Ideal) V c).arrAt_eq_of_cover 5
    (Cert.Gnn.layer128 (V c main_v12) (V c main_v22) (V c main_arg8) (V c main_arg10) (V c main_v24))
    (fun t _ => written_block V c t) covered

end Cert.Gnn.Region1

end
-- ==== Proof.Region2.lean ====
/-
  The readout's single-tile computation: the output array holds `readout` of the arrays the call found.

  The grid has one point, and at it every window's block is the whole of its array. The tile multiplies the [500,128]
  block by the [128,64] block into a zero accumulator, spreads the [1,64] bias row over the 500 rows and adds it. Read at
  an index (g, j) that is  ∑ₖ P(g,k)·W(k,j) + B(0,j)  — the conversions of the two factors to the multiplier's input
  format are the identity on the extended reals. The one point's write-back covers the [500,64] array, so the array
  ends holding the readout.
-/
import proofs.«106563_j47098611368430_1_alg».proof.Proof.Network
import proofs.«106563_j47098611368430_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Region2

open Idealize.ShloMosaic Idealize.ShloMosaic.TcCoe Idealize.SL.Sem Cert.KernelIdeal Cert.KernelIdeal.Gen
open scoped BigOperators

/-! ## The tile's arithmetic at an index -/

/-- The product's left operand is read in the output index's row. -/
theorem lhs_row (j : S500x64.Idx) (q : dot_S500x128_S128x64_S500x64_1_0_0_1_n_n.contr.Idx) :
    (dot_S500x128_S128x64_S500x64_1_0_0_1_n_n.lhsIdx j q 0).val = (j 0).val := by
  unfold DotDims.lhsIdx
  rw [dif_neg (show ¬(0 : Fin S500x128.rank) ∈ dot_S500x128_S128x64_S500x64_1_0_0_1_n_n.lhsBatch by decide),
    dif_pos (show (0 : Fin S500x128.rank) ∈ dot_S500x128_S128x64_S500x64_1_0_0_1_n_n.lhsNonContracting by decide)]
  rfl

/-- ... and in the column the contraction index names. -/
theorem lhs_col (j : S500x64.Idx) (q : dot_S500x128_S128x64_S500x64_1_0_0_1_n_n.contr.Idx) :
    (dot_S500x128_S128x64_S500x64_1_0_0_1_n_n.lhsIdx j q 1).val = (q ⟨0, by decide⟩).val :=
  dot_S500x128_S128x64_S500x64_1_0_0_1_n_n.lhsIdx_val_of_single rfl j q

/-- The right operand is read in the row the contraction index names -/
theorem rhs_row (j : S500x64.Idx) (q : dot_S500x128_S128x64_S500x64_1_0_0_1_n_n.contr.Idx) :
    (dot_S500x128_S128x64_S500x64_1_0_0_1_n_n.rhsIdx j q 0).val = (q ⟨0, by decide⟩).val :=
  dot_S500x128_S128x64_S500x64_1_0_0_1_n_n.rhsIdx_val_of_single rfl j q

/-- ... and in the output index's column. -/
theorem rhs_col (j : S500x64.Idx) (q : dot_S500x128_S128x64_S500x64_1_0_0_1_n_n.contr.Idx) :
    (dot_S500x128_S128x64_S500x64_1_0_0_1_n_n.rhsIdx j q 1).val = (j 1).val := by
  unfold DotDims.rhsIdx
  rw [dif_neg (show ¬(1 : Fin S128x64.rank) ∈ dot_S500x128_S128x64_S500x64_1_0_0_1_n_n.rhsBatch by decide),
    dif_pos (show (1 : Fin S128x64.rank) ∈ dot_S500x128_S128x64_S500x64_1_0_0_1_n_n.rhsNonContracting by decide)]
  rfl

/-- The matrix product into a zero accumulator, at an index: the sum over the 128 contracted positions. -/
theorem product_apply (a : FVec Ideal S500x128 .bf16) (b : FVec Ideal S128x64 .bf16) (j : S500x64.Idx) :
    matmul dot_S500x128_S128x64_S500x64_1_0_0_1_n_n none a b (constant (F := Ideal) S500x64 .f32 0x00000000#32) j
      = ∑ k : Fin 128, a (lrowP j k) * b (rcolP j k) := by
  simp only [matmul]
  rw [Ideal.matmul_constant_zero_apply, ← Equiv.sum_comp (ValueIdx.contrEquiv1 dot_S500x128_S128x64_S500x64_1_0_0_1_n_n 128 rfl rfl).symm]
  refine Finset.sum_congr rfl fun k _ => ?_
  have hk := ValueIdx.contrEquiv1_symm_val dot_S500x128_S128x64_S500x64_1_0_0_1_n_n 128 rfl rfl k
  have el : dot_S500x128_S128x64_S500x64_1_0_0_1_n_n.lhsIdx j ((ValueIdx.contrEquiv1 dot_S500x128_S128x64_S500x64_1_0_0_1_n_n 128 rfl rfl).symm k) = lrowP j k :=
    funext fun d => Fin.ext (by
      match d with
      | ⟨0, _⟩ => exact lhs_row _ _
      | ⟨1, _⟩ => exact (lhs_col _ _).trans hk)
  have er : dot_S500x128_S128x64_S500x64_1_0_0_1_n_n.rhsIdx j ((ValueIdx.contrEquiv1 dot_S500x128_S128x64_S500x64_1_0_0_1_n_n 128 rfl rfl).symm k) = rcolP j k :=
    funext fun d => Fin.ext (by
      match d with
      | ⟨0, _⟩ => exact (rhs_row _ _).trans hk
      | ⟨1, _⟩ => exact rhs_col _ _)
  rw [el, er]

/-- The bias row spread over the 500 rows, at an index: the row's entry in that column. -/
theorem bias_apply (x2 : Vec Ideal S1x64 .f32) (j : S500x64.Idx) :
    broadcastTo S500x64 x2 broadcasts_S1x64_S500x64 j = x2 (browP j) := by
  refine broadcastTo_apply x2 broadcasts_S1x64_S500x64 j (browP j) fun d => ?_
  match d with
  | ⟨0, _⟩ => rfl
  | ⟨1, _⟩ => show (j 1).val = if (64 : Nat) = 1 then 0 else (j 1).val; rw [if_neg (by decide)]

/-- What the tile stores, at an index: the row of the first operand against the column of the second, plus the bias
    row's entry in that column. The casts to the multiplier's input format are the identity on the extended reals. -/
theorem payload_apply (x0 : Vec Ideal S500x128 .f32) (x1 : Vec Ideal S128x64 .f32) (x2 : Vec Ideal S1x64 .f32) (j : S500x64.Idx) :
    k2_pay1 (F := Ideal) x0 x1 x2 j = (∑ k : Fin 128, x0 (lrowP j k) * x1 (rcolP j k)) + x2 (browP j) := by
  unfold k2_pay1
  simp only [shapeCast_self]
  rw [ValueIdx.addf_apply, product_apply, bias_apply]
  rfl

/-! ## From the tile to the array -/

/-- The tile's arithmetic on blocks that agree, entry by entry, with three arrays read at an index `i`, is the readout
    of those arrays at `i`. -/
theorem payload_eq_readout (x0 : Vec Ideal S500x128 .f32) (x1 : Vec Ideal S128x64 .f32) (x2 : Vec Ideal S1x64 .f32)
    (P : FVec Ideal S500x128 .f32) (W : FVec Ideal S128x64 .f32) (B : FVec Ideal S1x64 .f32) (j i : S500x64.Idx)
    (h0 : ∀ k : Fin 128, x0 (lrowP j k) = P (lrowP i k)) (h1 : ∀ k : Fin 128, x1 (rcolP j k) = W (rcolP i k))
    (h2 : x2 (browP j) = B (browP i)) :
    k2_pay1 (F := Ideal) x0 x1 x2 j = Cert.Gnn.readout P W B i := by
  rw [payload_apply]
  unfold Cert.Gnn.readout
  rw [h2]
  exact congrArg (· + B (browP i)) (Finset.sum_congr rfl fun k _ => by rw [h0 k, h1 k])

/-- The zero offset pair, as the constant function. -/
theorem origin : (![0, 0] : Fin 2 → Nat) = fun _ => 0 := funext fun a => by fin_cases a <;> rfl

/-- The four index maps, decided over the grid: every window's block is block (0, 0) of its array. -/
theorem block_index : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What a point writes back is its block of the readout of the three arrays the call found: each input block is the
    whole of its array (block (0, 0), of the array's own extents), and so is the output's. -/
theorem written_block (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Gnn.readout (V c main_v28) (V c main_arg12) (V c main_v29)) := by
  show (cfg2.win 3).cut (grid2.coords t) ((dat2 V c).after 3 t) = _
  rw [after2_3]
  unfold out2_3
  rw [View.canon_unit_zero origin]
  simp only [View.ld_unit_zero (S := S500x128) origin, View.ld_unit_zero (S := S128x64) origin,
    View.ld_unit_zero (S := S1x64) origin]
  obtain ⟨e00, e01, e10, e11, e20, e21, e30, e31⟩ := block_index t
  funext j
  show k2_pay1 (F := Ideal) (iblk2 V c 0 t) (iblk2 V c 1 t) (iblk2 V c 2 t) j
      = Cert.Gnn.readout (V c main_v28) (V c main_arg12) (V c main_v29) (((cfg2.win 3).blk t).view.emb j)
  refine payload_eq_readout _ _ _ _ _ _ j _ (fun k => ?_) (fun k => ?_) ?_
  · show V c main_v28 (((cfg2.win 0).blk t).view.emb (lrowP j k)) = V c main_v28 (lrowP (((cfg2.win 3).blk t).view.emb j) k)
    refine congrArg (V c main_v28) (funext fun a => Fin.ext ?_)
    match a with
    | ⟨0, _⟩ => show win2_0.index t (0 : Fin 2) * 500 + 1 * (j 0).val = win2_3.index t (0 : Fin 2) * 500 + 1 * (j 0).val; rw [e00, e30]
    | ⟨1, _⟩ => show win2_0.index t (1 : Fin 2) * 128 + 1 * k.val = k.val; rw [e01]; omega
  · show V c main_arg12 (((cfg2.win 1).blk t).view.emb (rcolP j k)) = V c main_arg12 (rcolP (((cfg2.win 3).blk t).view.emb j) k)
    refine congrArg (V c main_arg12) (funext fun a => Fin.ext ?_)
    match a with
    | ⟨0, _⟩ => show win2_1.index t (0 : Fin 2) * 128 + 1 * k.val = k.val; rw [e10]; omega
    | ⟨1, _⟩ => show win2_1.index t (1 : Fin 2) * 64 + 1 * (j 1).val = win2_3.index t (1 : Fin 2) * 64 + 1 * (j 1).val; rw [e11, e31]
  · show V c main_v29 (((cfg2.win 2).blk t).view.emb (browP j)) = V c main_v29 (browP (((cfg2.win 3).blk t).view.emb j))
    refine congrArg (V c main_v29) (funext fun a => Fin.ext ?_)
    match a with
    | ⟨0, _⟩ => show win2_2.index t (0 : Fin 2) * 1 + 1 * 0 = 0; rw [e20]
    | ⟨1, _⟩ => show win2_2.index t (1 : Fin 2) * 64 + 1 * (j 1).val = win2_3.index t (1 : Fin 2) * 64 + 1 * (j 1).val; rw [e21, e31]

/-- An index of the output array is in a point's block iff each coordinate is in the block's range on its axis. -/
theorem mem_block (t : Fin cfg2.N) (i : S500x64.Idx) :
    i ∈ ((cfg2.win 3).blk t).view.set ↔ ∀ a : Fin 2, win2_3.index t a * S500x64.size a ≤ (i a).val
      ∧ (i a).val < win2_3.index t a * S500x64.size a + S500x64.size a := by
  show i ∈ ((View.whole main_v30).slice (win2_3.rect t)).set ↔ _
  rw [View.set_slice_whole, Rect.mem_set_unit]
  exact Iff.rfl

/-- Every index of the [500,64] output is in the one point's block, which is written back. -/
theorem covered (i : S500x64.Idx) :
    ∃ t : Fin cfg2.N, (cfg2.win 3).flush t = true ∧ i ∈ ((cfg2.win 3).blk t).view.set := by
  have t : Fin cfg2.N := ⟨0, by decide⟩
  obtain ⟨-, -, -, -, -, -, e30, e31⟩ := block_index t
  refine ⟨t, flush2_3 t, ?_⟩
  rw [mem_block]
  intro a
  match a with
  | ⟨0, _⟩ =>
    show win2_3.index t (0 : Fin 2) * 500 ≤ (i 0).val ∧ (i 0).val < win2_3.index t (0 : Fin 2) * 500 + 500
    have hi : (i 0).val < 500 := (i 0).isLt
    omega
  | ⟨1, _⟩ =>
    show win2_3.index t (1 : Fin 2) * 64 ≤ (i 1).val ∧ (i 1).val < win2_3.index t (1 : Fin 2) * 64 + 64
    have hi : (i 1).val < 64 := (i 1).isLt
    omega

/-- The output array after the call: the readout of the pooled features, the readout matrix and the bias row as the
    call found them. -/
theorem final (V : (c : Dev nD) → (b : Ref sig .tc) → Buf (Elt Ideal) ((c : Thread nD τ).loc b)) (c : Dev nD) :
    (dat2 (F := Ideal) V c).arrAt 3 cfg2.N
      = Cert.Gnn.readout (V c main_v28) (V c main_arg12) (V c main_v29) :=
  (dat2 (F := Ideal) V c).arrAt_eq_of_cover 3 (Cert.Gnn.readout (V c main_v28) (V c main_arg12) (V c main_v29))
    (fun t _ => written_block V c t) covered

end Cert.Gnn.Region2

end
-- ==== Proof.Chain.lean ====
/-
  The contents of the tiled program's buffers at each boundary of its chain, read back to the launch memory.

  The chain is: host operations (the first aggregation and bias row), the first layer's tiled call, host operations (the
  second aggregation and bias row), the second layer's tiled call, host operations (pooling and the readout's bias row),
  the readout's call. A host stretch changes only the buffers its operations write — each such buffer then holds the
  operation's function of its operands — and a tiled call changes only its output array, which ends holding the layer
  (the three `final` lemmas). No operation and no call writes an argument buffer. Walking the chain from the launch
  memory to the end gives the result buffer as the network of the fourteen arguments.
-/
import proofs.«106563_j47098611368430_1_alg».proof.Proof.Network
import proofs.«106563_j47098611368430_1_alg».proof.Proof.Region0
import proofs.«106563_j47098611368430_1_alg».proof.Proof.Region1
import proofs.«106563_j47098611368430_1_alg».proof.Proof.Region2
import proofs.«106563_j47098611368430_1_alg».proof.Proof.Gen.KernelIdeal.Frame
import Idealize.ShloMosaic.Lib.StableHlo.Run

set_option maxRecDepth 16384

noncomputable section

namespace Cert.Gnn.Chain

open Idealize.ShloMosaic Idealize.ShloMosaic.TcCoe Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg) (c : Dev nD)

/-- A host stretch leaves a buffer none of its operations writes as it found it. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The launch contents of a buffer are the launch memory's. -/
theorem W0_eq (b : Ref sig .tc) : W0 m ρ c (Proc.devRef .tc b) = m ((c : Thread nD τ).loc b) := rfl

/-! ## Before the first call: the arguments untouched, the aggregation of `x`, the first bias row -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  keeps hostOps0
theorem W1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  keeps hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  keeps hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  keeps hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  keeps hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  keeps hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  keeps hostOps0
theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  keeps hostOps0
theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  keeps hostOps0
theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  keeps hostOps0
theorem W1_arg12 : W1 m ρ c (Proc.devRef .tc main_arg12) = m ((c : Thread nD τ).loc main_arg12) := by
  show StableHlo.after hostOps0 (W0 m ρ c) (Proc.devRef .tc main_arg12) = W0 m ρ c (Proc.devRef .tc main_arg12)
  keeps hostOps0
theorem W1_arg13 : W1 m ρ c (Proc.devRef .tc main_arg13) = m ((c : Thread nD τ).loc main_arg13) := by
  show StableHlo.after hostOps0 (W0 m ρ c) (Proc.devRef .tc main_arg13) = W0 m ρ c (Proc.devRef .tc main_arg13)
  keeps hostOps0

theorem W1_v9 : W1 m ρ c (Proc.devRef .tc main_v9) = agg64 (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem W1_v11 : W1 m ρ c (Proc.devRef .tc main_v11) = biasRow128 (m ((c : Thread nD τ).loc main_arg5)) (m ((c : Thread nD τ).loc main_arg7)) := by
  show StableHlo.after hostOps0 (W0 m ρ c) (Proc.devRef .tc main_v11) = _
  after_results
  rfl

/-- The node features after the first layer. -/
def h1 : Vec Ideal S50000x128 .f32 :=
  layer64 (m ((c : Thread nD τ).loc main_arg0)) (agg64 (m ((c : Thread nD τ).loc main_arg0)) (m ((c : Thread nD τ).loc main_arg1)) (m ((c : Thread nD τ).loc main_arg2))) (m ((c : Thread nD τ).loc main_arg4)) (m ((c : Thread nD τ).loc main_arg6)) (biasRow128 (m ((c : Thread nD τ).loc main_arg5)) (m ((c : Thread nD τ).loc main_arg7)))

/-! ## After the first call: its output array holds the first layer; nothing else moved -/

theorem W2_v12 : W2 m ρ c (Proc.devRef .tc main_v12) = h1 m c := by
  refine (W2_arr m ρ c 5).trans ?_
  rw [Region0.final (V1 m ρ) c]
  show layer64 (W1 m ρ c (Proc.devRef .tc main_arg0)) (W1 m ρ c (Proc.devRef .tc main_v9)) (W1 m ρ c (Proc.devRef .tc main_arg4))
    (W1 m ρ c (Proc.devRef .tc main_arg6)) (W1 m ρ c (Proc.devRef .tc main_v11)) = _
  rw [W1_arg0, W1_v9, W1_arg4, W1_arg6, W1_v11]
  rfl

theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)

/-! ## Before the second call: the aggregation of the first layer's features, the second bias row -/

theorem W3_v12 : W3 m ρ c (Proc.devRef .tc main_v12) = h1 m c := by
  refine Eq.trans ?_ (W2_v12 m ρ c)
  show StableHlo.after hostOps1 (W2 m ρ c) (Proc.devRef .tc main_v12) = W2 m ρ c (Proc.devRef .tc main_v12)
  keeps hostOps1

theorem W3_arg3 : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  keeps hostOps1
theorem W3_arg8 : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8)
  keeps hostOps1
theorem W3_arg10 : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10)
  keeps hostOps1
theorem W3_arg12 : W3 m ρ c (Proc.devRef .tc main_arg12) = m ((c : Thread nD τ).loc main_arg12) := by
  refine Eq.trans ?_ (W2_arg12 m ρ c)
  show StableHlo.after hostOps1 (W2 m ρ c) (Proc.devRef .tc main_arg12) = W2 m ρ c (Proc.devRef .tc main_arg12)
  keeps hostOps1
theorem W3_arg13 : W3 m ρ c (Proc.devRef .tc main_arg13) = m ((c : Thread nD τ).loc main_arg13) := by
  refine Eq.trans ?_ (W2_arg13 m ρ c)
  show StableHlo.after hostOps1 (W2 m ρ c) (Proc.devRef .tc main_arg13) = W2 m ρ c (Proc.devRef .tc main_arg13)
  keeps hostOps1

theorem W3_v22 : W3 m ρ c (Proc.devRef .tc main_v22) = agg128 (h1 m c) (m ((c : Thread nD τ).loc main_arg1)) (m ((c : Thread nD τ).loc main_arg2)) := by
  have e : W3 m ρ c (Proc.devRef .tc main_v22)
      = agg128 (W2 m ρ c (Proc.devRef .tc main_v12)) (W2 m ρ c (Proc.devRef .tc main_arg1)) (W2 m ρ c (Proc.devRef .tc main_arg2)) := by
    show StableHlo.after hostOps1 (W2 m ρ c) (Proc.devRef .tc main_v22) = _
    after_results
    rfl
  rw [e, W2_v12, W2_arg1, W2_arg2]

theorem W3_v24 : W3 m ρ c (Proc.devRef .tc main_v24) = biasRow128 (m ((c : Thread nD τ).loc main_arg9)) (m ((c : Thread nD τ).loc main_arg11)) := by
  have e : W3 m ρ c (Proc.devRef .tc main_v24)
      = biasRow128 (W2 m ρ c (Proc.devRef .tc main_arg9)) (W2 m ρ c (Proc.devRef .tc main_arg11)) := by
    show StableHlo.after hostOps1 (W2 m ρ c) (Proc.devRef .tc main_v24) = _
    after_results
    rfl
  rw [e, W2_arg9, W2_arg11]

/-- The node features after the second layer. -/
def h2 : Vec Ideal S50000x128 .f32 :=
  layer128 (h1 m c) (agg128 (h1 m c) (m ((c : Thread nD τ).loc main_arg1)) (m ((c : Thread nD τ).loc main_arg2))) (m ((c : Thread nD τ).loc main_arg8)) (m ((c : Thread nD τ).loc main_arg10)) (biasRow128 (m ((c : Thread nD τ).loc main_arg9)) (m ((c : Thread nD τ).loc main_arg11)))

/-! ## After the second call -/

theorem W4_v25 : W4 m ρ c (Proc.devRef .tc main_v25) = h2 m c := by
  refine (W4_arr m ρ c 5).trans ?_
  rw [Region1.final (V3 m ρ) c]
  show layer128 (W3 m ρ c (Proc.devRef .tc main_v12)) (W3 m ρ c (Proc.devRef .tc main_v22)) (W3 m ρ c (Proc.devRef .tc main_arg8))
    (W3 m ρ c (Proc.devRef .tc main_arg10)) (W3 m ρ c (Proc.devRef .tc main_v24)) = _
  rw [W3_v12, W3_v22, W3_arg8, W3_arg10, W3_v24]
  rfl

theorem W4_arg3 : W4 m ρ c (Proc.devRef .tc main_arg3) = m ((c : Thread nD τ).loc main_arg3) :=
  (W4_of_ne m ρ c main_arg3 (by decide)).trans (W3_arg3 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)

/-! ## Before the readout: pooling, the readout's bias row -/

theorem W5_v28 : W5 m ρ c (Proc.devRef .tc main_v28) = pool (h2 m c) (m ((c : Thread nD τ).loc main_arg3)) := by
  have e : W5 m ρ c (Proc.devRef .tc main_v28)
      = pool (W4 m ρ c (Proc.devRef .tc main_v25)) (W4 m ρ c (Proc.devRef .tc main_arg3)) := by
    show StableHlo.after hostOps2 (W4 m ρ c) (Proc.devRef .tc main_v28) = _
    after_results
    rfl
  rw [e, W4_v25, W4_arg3]

theorem W5_v29 : W5 m ρ c (Proc.devRef .tc main_v29) = biasRow64 (m ((c : Thread nD τ).loc main_arg13)) := by
  have e : W5 m ρ c (Proc.devRef .tc main_v29) = biasRow64 (W4 m ρ c (Proc.devRef .tc main_arg13)) := by
    show StableHlo.after hostOps2 (W4 m ρ c) (Proc.devRef .tc main_v29) = _
    after_results
    rfl
  rw [e, W4_arg13]

theorem W5_arg12 : W5 m ρ c (Proc.devRef .tc main_arg12) = m ((c : Thread nD τ).loc main_arg12) := by
  refine Eq.trans ?_ (W4_arg12 m ρ c)
  show StableHlo.after hostOps2 (W4 m ρ c) (Proc.devRef .tc main_arg12) = W4 m ρ c (Proc.devRef .tc main_arg12)
  keeps hostOps2

/-! ## The end: the result buffer holds the network of the arguments -/

theorem W6_v30 : W6 m ρ c (Proc.devRef .tc main_v30)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 3).trans ?_
  rw [Region2.final (V5 m ρ) c]
  show readout (W5 m ρ c (Proc.devRef .tc main_v28)) (W5 m ρ c (Proc.devRef .tc main_arg12)) (W5 m ρ c (Proc.devRef .tc main_v29)) = _
  rw [W5_v28, W5_arg12, W5_v29]
  rfl

end Cert.Gnn.Chain

end
-- ==== Proof.Reference.lean ====
/-
  The plain program's result is the network: its stages, read one operation at a time, are the layers of `Cert.Gnn`
  (the two biases regrouped), applied to the same sparse host operations.
-/
import proofs.«106563_j47098611368430_1_alg».proof.Proof.Network
import proofs.«106563_j47098611368430_1_alg».proof.Proof.Gen.ReferenceIdeal.Read
import Idealize.ShloMosaic.Lib.ValueIdx
import Idealize.ShloMosaic.PureOps.Ideal.Laws

noncomputable section

namespace Cert.Gnn.Ref

open Idealize.ShloMosaic Idealize.ShloMosaic.TcCoe Idealize.SL.Sem Cert.ReferenceIdeal Cert.ReferenceIdeal.Gen Cert.ReferenceIdeal.Read

open scoped BigOperators

/-! ## The sparse stages are the network's named functions

  Both programs spell the neighbour aggregation and the pooling with the same host operations; their gather and scatter
  records are separate constants with the same literal fields. -/

/-- The five records, equal field by field (the well-formedness fields are proofs). -/
theorem gather64_eq :
    Cert.ReferenceIdeal.gather_S50000x64_S800000x1_S800000x64_1_0_n_n_0_1_164
      = Cert.KernelIdeal.gather_S50000x64_S800000x1_S800000x64_1_0_n_n_0_1_164 := rfl
theorem scatter64_eq :
    Cert.ReferenceIdeal.scatter_S50000x64_S800000x1_S800000x64_1_0_0_1
      = Cert.KernelIdeal.scatter_S50000x64_S800000x1_S800000x64_1_0_0_1 := rfl
theorem gather128_eq :
    Cert.ReferenceIdeal.gather_S50000x128_S800000x1_S800000x128_1_0_n_n_0_1_1128
      = Cert.KernelIdeal.gather_S50000x128_S800000x1_S800000x128_1_0_n_n_0_1_1128 := rfl
theorem scatter128_eq :
    Cert.ReferenceIdeal.scatter_S50000x128_S800000x1_S800000x128_1_0_0_1
      = Cert.KernelIdeal.scatter_S50000x128_S800000x1_S800000x128_1_0_0_1 := rfl
theorem scatterPool_eq :
    Cert.ReferenceIdeal.scatter_S500x128_S50000x1_S50000x128_1_0_0_1
      = Cert.KernelIdeal.scatter_S500x128_S50000x1_S50000x128_1_0_0_1 := rfl

/-- The source indices as the gather reads them: the plain program's index normalisation is `wrapIdx`. -/
theorem wrap_eq (x2 : Vec Ideal S800000 .i32) : val_main_v8 (F := Ideal) x2 = Cert.Gnn.wrapIdx x2 := by
  unfold val_main_v8 val_main_v7 val_main_v6 val_main_v5 val_main_v4 val_main_c val_main_c_0 Cert.Gnn.wrapIdx
  rfl

/-- The first layer's aggregated neighbour features. -/
theorem agg64_eq (x0 : Vec Ideal S50000x64 .f32) (x1 x2 : Vec Ideal S800000 .i32) :
    val_main_v13 (F := Ideal) x0 x1 x2 = Cert.Gnn.agg64 x0 x1 x2 := by
  unfold val_main_v13 val_main_v12 val_main_v11 val_main_v10 val_main_v9 val_main_cst Cert.Gnn.agg64
  rw [wrap_eq, scatter64_eq, gather64_eq]

/-- The second layer's aggregated neighbour features, of the first layer's output. -/
theorem agg128_eq (x0 : Vec Ideal S50000x64 .f32) (x1 x2 : Vec Ideal S800000 .i32)
    (x4 : Vec Ideal S64x128 .f32) (x5 : Vec Ideal S128 .f32) (x6 : Vec Ideal S64x128 .f32) (x7 : Vec Ideal S128 .f32) :
    val_main_v33 (F := Ideal) x0 x1 x2 x4 x5 x6 x7
      = Cert.Gnn.agg128 (val_main_v19 (F := Ideal) x0 x1 x2 x4 x5 x6 x7) x1 x2 := by
  unfold val_main_v33 val_main_v32 val_main_v31 val_main_v30 val_main_v29 val_main_cst_3 Cert.Gnn.agg128
  generalize val_main_v19 (F := Ideal) x0 x1 x2 x4 x5 x6 x7 = h
  have w : val_main_v28 (F := Ideal) x2 = Cert.Gnn.wrapIdx x2 := by
    unfold val_main_v28 val_main_v27 val_main_v26 val_main_v25 val_main_v24 val_main_c_1 val_main_c_2 Cert.Gnn.wrapIdx
    rfl
  rw [w, scatter128_eq, gather128_eq]

/-- The pooled features, of the second layer's output. -/
theorem pool_eq (x0 : Vec Ideal S50000x64 .f32) (x1 x2 : Vec Ideal S800000 .i32) (x3 : Vec Ideal S50000 .i32)
    (x4 : Vec Ideal S64x128 .f32) (x5 : Vec Ideal S128 .f32) (x6 : Vec Ideal S64x128 .f32) (x7 : Vec Ideal S128 .f32)
    (x8 : Vec Ideal S128x128 .f32) (x9 : Vec Ideal S128 .f32) (x10 : Vec Ideal S128x128 .f32) (x11 : Vec Ideal S128 .f32) :
    val_main_v42 (F := Ideal) x0 x1 x2 x3 x4 x5 x6 x7 x8 x9 x10 x11
      = Cert.Gnn.pool (val_main_v39 (F := Ideal) x0 x1 x2 x4 x5 x6 x7 x8 x9 x10 x11) x3 := by
  unfold val_main_v42 val_main_v41 val_main_v40 val_main_cst_4 Cert.Gnn.pool
  generalize val_main_v39 (F := Ideal) x0 x1 x2 x4 x5 x6 x7 x8 x9 x10 x11 = h
  rw [scatterPool_eq]

/-! ## Index equations: the plain program's index functions are the specification's -/

theorem lidx0_eq (i : S50000x128.Idx) (k : Fin 64) : lidx_main_v0 i k = Cert.Gnn.lrow64 i k :=
  funext fun a => Fin.ext (by match a with | ⟨0, _⟩ => rfl | ⟨1, _⟩ => rfl)
theorem ridx0_eq (i : S50000x128.Idx) (k : Fin 64) : ridx_main_v0 i k = Cert.Gnn.rcol64 i k :=
  funext fun a => Fin.ext (by match a with | ⟨0, _⟩ => rfl | ⟨1, _⟩ => rfl)
theorem lidx14_eq (i : S50000x128.Idx) (k : Fin 64) : lidx_main_v14 i k = Cert.Gnn.lrow64 i k :=
  funext fun a => Fin.ext (by match a with | ⟨0, _⟩ => rfl | ⟨1, _⟩ => rfl)
theorem ridx14_eq (i : S50000x128.Idx) (k : Fin 64) : ridx_main_v14 i k = Cert.Gnn.rcol64 i k :=
  funext fun a => Fin.ext (by match a with | ⟨0, _⟩ => rfl | ⟨1, _⟩ => rfl)
theorem bias1a_eq (i : S50000x128.Idx) : idx_main_v1 (idx_main_v2 i) = Cert.Gnn.vcol128 i :=
  funext fun a => Fin.ext (by match a with | ⟨0, _⟩ => rfl)
theorem bias1b_eq (i : S50000x128.Idx) : idx_main_v15 (idx_main_v16 i) = Cert.Gnn.vcol128 i :=
  funext fun a => Fin.ext (by match a with | ⟨0, _⟩ => rfl)

/-! ## The first layer, index by index -/

/-- Entry (r, j) of the plain program's first layer is
    max ((∑ₖ X(r,k)·Wa(k,j) + ba(j)) + (∑ₖ M(r,k)·Wb(k,j) + bb(j))) 0, with M the aggregated neighbour features;
    regrouping the four summands gives the specification's max ((∑ₖ X·Wa + ∑ₖ M·Wb) + (ba(j) + bb(j))) 0, whose bias
    row at (0, j) is ba(j) + bb(j). Both sums run over the 64 input features. -/
theorem layer64_eq (x0 : Vec Ideal S50000x64 .f32) (x1 x2 : Vec Ideal S800000 .i32)
    (x4 : Vec Ideal S64x128 .f32) (x5 : Vec Ideal S128 .f32) (x6 : Vec Ideal S64x128 .f32) (x7 : Vec Ideal S128 .f32) :
    val_main_v19 (F := Ideal) x0 x1 x2 x4 x5 x6 x7
      = Cert.Gnn.layer64 x0 (val_main_v13 (F := Ideal) x0 x1 x2) x4 x6 (Cert.Gnn.biasRow128 x5 x7) := by
  funext i
  unfold Cert.Gnn.layer64
  rw [val_main_v19_apply, val_main_v18_apply, val_main_v3_apply, val_main_v0_apply, val_main_v2_apply, val_main_v1_apply,
    val_main_v17_apply, val_main_v14_apply, val_main_v16_apply, val_main_v15_apply, val_main_call0_v0_apply,
    val_main_call0_cst_apply]
  generalize val_main_v13 (F := Ideal) x0 x1 x2 = m
  simp only [lidx0_eq, ridx0_eq, lidx14_eq, ridx14_eq, bias1a_eq, bias1b_eq, Cert.Gnn.biasRow128_apply, Ideal.addf_def,
    Ideal.maximumf_def, Ideal.ofBits_def]
  rw [Cert.Gnn.regroup]

/-! ## The second layer, index by index -/

theorem lidx20_eq (i : S50000x128.Idx) (k : Fin 128) : lidx_main_v20 i k = Cert.Gnn.lrow128 i k :=
  funext fun a => Fin.ext (by match a with | ⟨0, _⟩ => rfl | ⟨1, _⟩ => rfl)
theorem ridx20_eq (i : S50000x128.Idx) (k : Fin 128) : ridx_main_v20 i k = Cert.Gnn.rcol128 i k :=
  funext fun a => Fin.ext (by match a with | ⟨0, _⟩ => rfl | ⟨1, _⟩ => rfl)
theorem lidx34_eq (i : S50000x128.Idx) (k : Fin 128) : lidx_main_v34 i k = Cert.Gnn.lrow128 i k :=
  funext fun a => Fin.ext (by match a with | ⟨0, _⟩ => rfl | ⟨1, _⟩ => rfl)
theorem ridx34_eq (i : S50000x128.Idx) (k : Fin 128) : ridx_main_v34 i k = Cert.Gnn.rcol128 i k :=
  funext fun a => Fin.ext (by match a with | ⟨0, _⟩ => rfl | ⟨1, _⟩ => rfl)
theorem bias2a_eq (i : S50000x128.Idx) : idx_main_v21 (idx_main_v22 i) = Cert.Gnn.vcol128 i :=
  funext fun a => Fin.ext (by match a with | ⟨0, _⟩ => rfl)
theorem bias2b_eq (i : S50000x128.Idx) : idx_main_v35 (idx_main_v36 i) = Cert.Gnn.vcol128 i :=
  funext fun a => Fin.ext (by match a with | ⟨0, _⟩ => rfl)

/-- The same for the second layer, whose node features are the first layer's output and whose neighbour features are that
    output aggregated; both sums run over the 128 hidden features, and the same regrouping of the four summands is used. -/
theorem layer128_eq (x0 : Vec Ideal S50000x64 .f32) (x1 x2 : Vec Ideal S800000 .i32)
    (x4 : Vec Ideal S64x128 .f32) (x5 : Vec Ideal S128 .f32) (x6 : Vec Ideal S64x128 .f32) (x7 : Vec Ideal S128 .f32)
    (x8 : Vec Ideal S128x128 .f32) (x9 : Vec Ideal S128 .f32) (x10 : Vec Ideal S128x128 .f32) (x11 : Vec Ideal S128 .f32) :
    val_main_v39 (F := Ideal) x0 x1 x2 x4 x5 x6 x7 x8 x9 x10 x11
      = Cert.Gnn.layer128 (val_main_v19 (F := Ideal) x0 x1 x2 x4 x5 x6 x7)
          (val_main_v33 (F := Ideal) x0 x1 x2 x4 x5 x6 x7) x8 x10 (Cert.Gnn.biasRow128 x9 x11) := by
  funext i
  unfold Cert.Gnn.layer128
  rw [val_main_v39_apply, val_main_v38_apply, val_main_v23_apply, val_main_v20_apply, val_main_v22_apply, val_main_v21_apply,
    val_main_v37_apply, val_main_v34_apply, val_main_v36_apply, val_main_v35_apply, val_main_call1_v0_apply,
    val_main_call1_cst_apply]
  generalize val_main_v33 (F := Ideal) x0 x1 x2 x4 x5 x6 x7 = m
  generalize val_main_v19 (F := Ideal) x0 x1 x2 x4 x5 x6 x7 = h
  simp only [lidx20_eq, ridx20_eq, lidx34_eq, ridx34_eq, bias2a_eq, bias2b_eq, Cert.Gnn.biasRow128_apply, Ideal.addf_def,
    Ideal.maximumf_def, Ideal.ofBits_def]
  rw [Cert.Gnn.regroup]

/-! ## The readout, index by index -/

theorem lidx43_eq (i : S500x64.Idx) (k : Fin 128) : lidx_main_v43 i k = Cert.Gnn.lrowP i k :=
  funext fun a => Fin.ext (by match a with | ⟨0, _⟩ => rfl | ⟨1, _⟩ => rfl)
theorem ridx43_eq (i : S500x64.Idx) (k : Fin 128) : ridx_main_v43 i k = Cert.Gnn.rcolP i k :=
  funext fun a => Fin.ext (by match a with | ⟨0, _⟩ => rfl | ⟨1, _⟩ => rfl)
theorem biasF_eq (i : S500x64.Idx) : idx_main_v44 (idx_main_v45 i) = Cert.Gnn.vcol64 i :=
  funext fun a => Fin.ext (by match a with | ⟨0, _⟩ => rfl)

/-- Entry (g, j) of the plain program's result is ∑ₖ P(g,k)·W(k,j) + b(j) with P the pooled features, the sum over the
    128 hidden features: the specification's readout as it stands, its bias row at (0, j) being b(j). No regrouping
    is needed. -/
theorem readout_eq (x0 : Vec Ideal S50000x64 .f32) (x1 x2 : Vec Ideal S800000 .i32) (x3 : Vec Ideal S50000 .i32)
    (x4 : Vec Ideal S64x128 .f32) (x5 : Vec Ideal S128 .f32) (x6 : Vec Ideal S64x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x64 .f32) (x13 : Vec Ideal S64 .f32) :
    val_main_v46 (F := Ideal) x0 x1 x2 x3 x4 x5 x6 x7 x8 x9 x10 x11 x12 x13
      = Cert.Gnn.readout (val_main_v42 (F := Ideal) x0 x1 x2 x3 x4 x5 x6 x7 x8 x9 x10 x11) x12 (Cert.Gnn.biasRow64 x13) := by
  funext i
  unfold Cert.Gnn.readout
  rw [val_main_v46_apply, val_main_v43_apply, val_main_v45_apply, val_main_v44_apply]
  generalize val_main_v42 (F := Ideal) x0 x1 x2 x3 x4 x5 x6 x7 x8 x9 x10 x11 = p
  simp only [lidx43_eq, ridx43_eq, biasF_eq, Cert.Gnn.biasRow64_apply, Ideal.addf_def]

/-! ## The whole program -/

theorem ref_network (x0 : Vec Ideal S50000x64 .f32) (x1 x2 : Vec Ideal S800000 .i32) (x3 : Vec Ideal S50000 .i32)
    (x4 : Vec Ideal S64x128 .f32) (x5 : Vec Ideal S128 .f32) (x6 : Vec Ideal S64x128 .f32) (x7 : Vec Ideal S128 .f32)
    (x8 : Vec Ideal S128x128 .f32) (x9 : Vec Ideal S128 .f32) (x10 : Vec Ideal S128x128 .f32) (x11 : Vec Ideal S128 .f32)
    (x12 : Vec Ideal S128x64 .f32) (x13 : Vec Ideal S64 .f32) :
    val_main_v46 (F := Ideal) x0 x1 x2 x3 x4 x5 x6 x7 x8 x9 x10 x11 x12 x13
      = Cert.Gnn.network x0 x1 x2 x3 x4 x5 x6 x7 x8 x9 x10 x11 x12 x13 := by
  unfold Cert.Gnn.network
  rw [readout_eq, pool_eq, layer128_eq, agg128_eq, layer64_eq, agg64_eq]

end Cert.Gnn.Ref

end
-- ==== Proof.lean ====
/-
  A two-layer graph network with a sum readout, computed two ways, gives the same [500, 64] result on the extended reals.

  Both programs take node features `x` [50000, 64], an edge list (destination and source indices, 800000 each), a
  graph index per node, and the weights and biases of two message-passing layers and a readout. One layer is
      h = max (X·Wa + ba + (A X)·Wb + bb) 0,
  `A X` the adjacency's sparse product (source rows gathered along the edges and added into the destination rows); the
  readout adds each node's row into its graph's row and applies one more affine map.

  The tiled program computes each layer's dense part in ten row tiles of 5000 nodes, with the two biases added first
  into ONE row: max ((X·Wa + (A X)·Wb) + (ba + bb)) 0; the sparse steps are host operations between the tiled calls, the
  same ones the plain program uses. The plain program computes (X·Wa + ba) + ((A X)·Wb + bb) on whole arrays. A change
  of float format is the identity on the extended reals, a tile of a matrix product is the product of the tile, and the
  two groupings of the four summands agree because addition of extended reals is commutative and associative — infinite
  values included, so the finiteness of the inputs is not used.

  Modules: `Spec` (the layers, index by index, and the regrouping law), `Network` (the sparse steps named, the network
  as one function), `Region0/1/2` (each tiled call's output array is its layer of the arrays it found), `Chain` (the
  buffers at each boundary of the tiled program, back to the launch memory), `KernelRun` (the tiled program's run with
  its final buffers named), `Reference` (the plain program's stages are the same network).
-/
import proofs.«106563_j47098611368430_1_alg».proof.Defs
import proofs.«106563_j47098611368430_1_alg».proof.Proof.Gen.Kernel
import proofs.«106563_j47098611368430_1_alg».proof.Proof.Gen.Kernel.Skeleton
import proofs.«106563_j47098611368430_1_alg».proof.Proof.Gen.Kernel.Launch
import proofs.«106563_j47098611368430_1_alg».proof.Proof.Gen.Kernel.Points
import proofs.«106563_j47098611368430_1_alg».proof.Proof.Gen.Kernel.Frame
import proofs.«106563_j47098611368430_1_alg».proof.Proof.Gen.KernelIdeal
import proofs.«106563_j47098611368430_1_alg».proof.Proof.Gen.KernelIdeal.Skeleton
import proofs.«106563_j47098611368430_1_alg».proof.Proof.Gen.KernelIdeal.Launch
import proofs.«106563_j47098611368430_1_alg».proof.Proof.Gen.KernelIdeal.Points
import proofs.«106563_j47098611368430_1_alg».proof.Proof.Gen.KernelIdeal.Frame
import proofs.«106563_j47098611368430_1_alg».proof.Proof.Gen.ReferenceIdeal
import proofs.«106563_j47098611368430_1_alg».proof.Proof.Gen.ReferenceIdeal.Run
import proofs.«106563_j47098611368430_1_alg».proof.Proof.Gen.ReferenceIdeal.Read
import proofs.«106563_j47098611368430_1_alg».proof.Proof.Gen.Pre_finite_inputs
import proofs.«106563_j47098611368430_1_alg».proof.Proof.KernelRun
import proofs.«106563_j47098611368430_1_alg».proof.Proof.Chain
import proofs.«106563_j47098611368430_1_alg».proof.Proof.Reference
import Idealize.ShloMosaic.Adequacy
import Idealize.ShloMosaic.Init

noncomputable section

namespace Cert.Proof

open Idealize.ShloMosaic Idealize.ShloMosaic.TcCoe Idealize.SL.Sem

/-- The word-level tiled program runs and keeps its arguments. -/
theorem frame_kernel : Cert.frame_Kernel := fun m ρ _ => Cert.Kernel.Gen.frame m ρ

/-- The tiled program on the extended reals runs and keeps its arguments. -/
theorem frame_kernelIdeal : Cert.frame_KernelIdeal := fun m ρ _ => Cert.KernelIdeal.Gen.frame m ρ

/-- The plain program runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the tiled program on the extended reals. -/
theorem preserves : Cert.preserves_Kernel_KernelIdeal := trivial

/-- From memories agreeing on the arguments both programs end with the network of the arguments in their result buffer:
    the tiled program by its chain of boundaries, the plain program by its stages read one operation at a time. -/
theorem algebraic : Cert.algebraic_KernelIdeal_ReferenceIdeal := by
  intro m ρ m' ρ' _ hagree
  refine ⟨fun c => Cert.Gnn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.Gnn.Run.run_all (F := Ideal) m ρ)
    have hc := h c
    exact ⟨(hc _ (Cert.KernelIdeal.Gen.mem_uc Cert.KernelIdeal.main_v30 (by decide))).trans (Cert.Gnn.Chain.W6_v30 m ρ c),
      (hc _ (Cert.KernelIdeal.Gen.mem_uc Cert.KernelIdeal.main_arg0 (by decide))).trans (Cert.KernelIdeal.Gen.W6_main_arg0 m ρ c),
      (hc _ (Cert.KernelIdeal.Gen.mem_uc Cert.KernelIdeal.main_arg1 (by decide))).trans (Cert.KernelIdeal.Gen.W6_main_arg1 m ρ c),
      (hc _ (Cert.KernelIdeal.Gen.mem_uc Cert.KernelIdeal.main_arg2 (by decide))).trans (Cert.KernelIdeal.Gen.W6_main_arg2 m ρ c),
      (hc _ (Cert.KernelIdeal.Gen.mem_uc Cert.KernelIdeal.main_arg3 (by decide))).trans (Cert.KernelIdeal.Gen.W6_main_arg3 m ρ c),
      (hc _ (Cert.KernelIdeal.Gen.mem_uc Cert.KernelIdeal.main_arg4 (by decide))).trans (Cert.KernelIdeal.Gen.W6_main_arg4 m ρ c),
      (hc _ (Cert.KernelIdeal.Gen.mem_uc Cert.KernelIdeal.main_arg5 (by decide))).trans (Cert.KernelIdeal.Gen.W6_main_arg5 m ρ c),
      (hc _ (Cert.KernelIdeal.Gen.mem_uc Cert.KernelIdeal.main_arg6 (by decide))).trans (Cert.KernelIdeal.Gen.W6_main_arg6 m ρ c),
      (hc _ (Cert.KernelIdeal.Gen.mem_uc Cert.KernelIdeal.main_arg7 (by decide))).trans (Cert.KernelIdeal.Gen.W6_main_arg7 m ρ c),
      (hc _ (Cert.KernelIdeal.Gen.mem_uc Cert.KernelIdeal.main_arg8 (by decide))).trans (Cert.KernelIdeal.Gen.W6_main_arg8 m ρ c),
      (hc _ (Cert.KernelIdeal.Gen.mem_uc Cert.KernelIdeal.main_arg9 (by decide))).trans (Cert.KernelIdeal.Gen.W6_main_arg9 m ρ c),
      (hc _ (Cert.KernelIdeal.Gen.mem_uc Cert.KernelIdeal.main_arg10 (by decide))).trans (Cert.KernelIdeal.Gen.W6_main_arg10 m ρ c),
      (hc _ (Cert.KernelIdeal.Gen.mem_uc Cert.KernelIdeal.main_arg11 (by decide))).trans (Cert.KernelIdeal.Gen.W6_main_arg11 m ρ c),
      (hc _ (Cert.KernelIdeal.Gen.mem_uc Cert.KernelIdeal.main_arg12 (by decide))).trans (Cert.KernelIdeal.Gen.W6_main_arg12 m ρ c),
      (hc _ (Cert.KernelIdeal.Gen.mem_uc Cert.KernelIdeal.main_arg13 (by decide))).trans (Cert.KernelIdeal.Gen.W6_main_arg13 m ρ c)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v46_eq, Cert.Gnn.Ref.ref_network, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
